-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S32x32 : Shape := ⟨2, ![32, 32]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S32x32 : S_.BroadcastsInDim S32x32 (![] : Fin 0 → Fin S32x32.rank)
  reducesTo_S32x32_S_d0_1 : S32x32.ReducesTo [0, 1] S_

variable [Facts]

def fn {F : FTy → Type} [FloatOps F] (main_arg0 : FVec F S8192x4096 .f32) (main_arg1 : FVec F S4096x4096 .f32) (main_arg2 : FVec F S32x32 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S32x32 : Shape := ⟨2, ![32, 32]⟩
abbrev S32x32x128 : Shape := ⟨3, ![32, 32, 128]⟩
abbrev S32x4096 : Shape := ⟨2, ![32, 4096]⟩
abbrev S2048x512 : Shape := ⟨2, ![2048, 512]⟩
abbrev S1024x512 : Shape := ⟨2, ![1024, 512]⟩
abbrev S8x512 : Shape := ⟨2, ![8, 512]⟩
abbrev S2048x1024 : Shape := ⟨2, ![2048, 1024]⟩
abbrev S8x128x512 : Shape := ⟨3, ![8, 128, 512]⟩
abbrev S8x1x512 : Shape := ⟨3, ![8, 1, 512]⟩

abbrev nBuf : Space → Nat
  | .hbm => 6
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S32x32, .f32⟩
  | .hbm, ⟨3, _⟩ => ⟨S32x32x128, .f32⟩
  | .hbm, ⟨4, _⟩ => ⟨S32x4096, .f32⟩
  | .hbm, ⟨5, _⟩ => ⟨S8192x4096, .f32⟩
  | .local _ .vmem, ⟨0, _⟩ => ⟨S2048x512, .f32⟩
  | .local _ .vmem, ⟨1, _⟩ => ⟨S2048x512, .f32⟩
  | .local _ .vmem, ⟨2, _⟩ => ⟨S1024x512, .f32⟩
  | .local _ .vmem, ⟨3, _⟩ => ⟨S1024x512, .f32⟩
  | .local _ .vmem, ⟨4, _⟩ => ⟨S8x512, .f32⟩
  | .local _ .vmem, ⟨5, _⟩ => ⟨S8x512, .f32⟩
  | .local _ .vmem, ⟨6, _⟩ => ⟨S2048x1024, .f32⟩
  | .local _ .vmem, ⟨7, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S32x32_S32x32x128_0_1 : S32x32.BroadcastsInDim S32x32x128 (![0, 1] : Fin 2 → Fin S32x32x128.rank)
  shapeCasts_S32x32x128_S32x4096 : S32x32x128.ShapeCasts S32x4096
  inb_S2048x1024_S2048x1024_0_0 : ∀ a, (![0, 0] : Fin 2 → Nat) a + S2048x1024.size a ≤ S2048x1024.size a
  h_S2048x1024 : 0 < S2048x1024.numel
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S8x512_S8x512_0_0 : ∀ a, (![0, 0] : Fin 2 → Nat) a + S8x512.size a ≤ S8x512.size a
  h_S8x512 : 0 < S8x512.numel
  shapeCasts_S8x512_S8x512 : S8x512.ShapeCasts S8x512
  shapeCasts_S1024x512_S8x128x512 : S1024x512.ShapeCasts S8x128x512
  shapeCasts_S8x512_S8x1x512 : S8x512.ShapeCasts S8x1x512
  broadcasts_S8x1x512_S8x128x512 : S8x1x512.Broadcasts S8x128x512
  shapeCasts_S8x128x512_S1024x512 : S8x128x512.ShapeCasts S1024x512
  shapeCasts_S2048x1024_S2048x1024 : S2048x1024.ShapeCasts S2048x1024
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .f32 = 32 ∨ (Rect.block (s := S8192x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S32x4096.size a
  hwx0_2 : ∀ i : grid0.Coords, EltTy.bits .f32 = 32 ∨ (Rect.block (s := S32x4096) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S32x32 : Shape := ⟨2, ![32, 32]⟩
abbrev S8192x32x128 : Shape := ⟨3, ![8192, 32, 128]⟩
abbrev S_ : Shape := ⟨0, ![]⟩
abbrev S8192x32 : Shape := ⟨2, ![8192, 32]⟩
abbrev S8192x32x1 : Shape := ⟨3, ![8192, 32, 1]⟩
abbrev S32x128x32x128 : Shape := ⟨4, ![32, 128, 32, 128]⟩
abbrev S32x1x32x1 : Shape := ⟨4, ![32, 1, 32, 1]⟩

abbrev nBuf : Space → Nat
  | .hbm => 34
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S32x32, .f32⟩
  | .hbm, ⟨3, _⟩ => ⟨S8192x32x128, .f32⟩
  | .hbm, ⟨4, _⟩ => ⟨S8192x32x128, .f32⟩
  | .hbm, ⟨5, _⟩ => ⟨S_, .f32⟩
  | .hbm, ⟨6, _⟩ => ⟨S8192x32, .f32⟩
  | .hbm, ⟨7, _⟩ => ⟨S_, .f32⟩
  | .hbm, ⟨8, _⟩ => ⟨S8192x32, .f32⟩
  | .hbm, ⟨9, _⟩ => ⟨S8192x32, .f32⟩
  | .hbm, ⟨10, _⟩ => ⟨S_, .f32⟩
  | .hbm, ⟨11, _⟩ => ⟨S8192x32, .f32⟩
  | .hbm, ⟨12, _⟩ => ⟨S8192x32, .f32⟩
  | .hbm, ⟨13, _⟩ => ⟨S8192x32x1, .f32⟩
  | .hbm, ⟨14, _⟩ => ⟨S8192x32x128, .f32⟩
  | .hbm, ⟨15, _⟩ => ⟨S8192x32x128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192x32x128, .f32⟩
  | .hbm, ⟨20, _⟩ => ⟨S8192x32x128, .f32⟩
  | .hbm, ⟨21, _⟩ => ⟨S_, .f32⟩
  | .hbm, ⟨22, _⟩ => ⟨S8192x32x128, .f32⟩
  | .hbm, ⟨23, _⟩ => ⟨S8192x32x128, .f32⟩
  | .hbm, ⟨24, _⟩ => ⟨S8192x32x1, .f32⟩
  | .hbm, ⟨25, _⟩ => ⟨S8192x32x128, .f32⟩
  | .hbm, ⟨26, _⟩ => ⟨S8192x32x128, .f32⟩
  | .hbm, ⟨27, _⟩ => ⟨S8192x4096, .f32⟩
  | .hbm, ⟨28, _⟩ => ⟨S32x128x32x128, .f32⟩
  | .hbm, ⟨29, _⟩ => ⟨S32x1x32x1, .f32⟩
  | .hbm, ⟨30, _⟩ => ⟨S32x128x32x128, .f32⟩
  | .hbm, ⟨31, _⟩ => ⟨S32x128x32x128, .f32⟩
  | .hbm, ⟨32, _⟩ => ⟨S4096x4096, .f32⟩
  | .hbm, ⟨33, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_cst_3 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]

class Facts₀ : Prop where
  shapeCasts_S8192x4096_S8192x32x128 : S8192x4096.ShapeCasts S8192x32x128
  reducesTo_S8192x32x128_S8192x32_d2 : S8192x32x128.ReducesTo [2] S8192x32
  h_S_ : 0 < S_.numel
  bcast_S_S8192x32 : S_.BroadcastsInDim S8192x32 (![] : Fin 0 → Fin S8192x32.rank)
  bcast_S8192x32_S8192x32x1_0_1 : S8192x32.BroadcastsInDim S8192x32x1 (![0, 1] : Fin 2 → Fin S8192x32x1.rank)
  bcast_S8192x32x1_S8192x32x128_0_1_2 : S8192x32x1.BroadcastsInDim S8192x32x128 (![0, 1, 2] : Fin 3 → Fin S8192x32x128.rank)
  bcast_S_S8192x32x128 : S_.BroadcastsInDim S8192x32x128 (![] : Fin 0 → Fin S8192x32x128.rank)
  shapeCasts_S8192x32x128_S8192x4096 : S8192x32x128.ShapeCasts S8192x4096
  shapeCasts_S4096x4096_S32x128x32x128 : S4096x4096.ShapeCasts S32x128x32x128
  bcast_S32x32_S32x1x32x1_0_2 : S32x32.BroadcastsInDim S32x1x32x1 (![0, 2] : Fin 2 → Fin S32x1x32x1.rank)
  bcast_S32x1x32x1_S32x128x32x128_0_1_2_3 : S32x1x32x1.BroadcastsInDim S32x128x32x128 (![0, 1, 2, 3] : Fin 4 → Fin S32x128x32x128.rank)
  shapeCasts_S32x128x32x128_S4096x4096 : S32x128x32x128.ShapeCasts S4096x4096
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.LibDotNT.lean ====
/-
  A matrix times the transpose of another, read at an entry, on the extended reals.

  For the dimension numbers of an M×K by N×K product (DotDims.transposedRhs M K N: contract the second axis of BOTH
  operands, no batch axis), the sum over the contraction index of the operands' products at output entry (p, j) is
  ∑ k, l (p, k) * r (j, k): the contraction index is its one coordinate k, the left operand is read at row p,
  column k, the right at row j, column k. From it: a vector-unit matrix product into the zero accumulator
  (matmul_zero_apply) and the host's dot_general (dotGeneral_apply) at (p, j). A printed program's own record of these
  dimension numbers is DotDims.transposedRhs of its literal sizes by rfl.
-/
import Idealize.ShloMosaic.Lib.ValueIdx
import Idealize.ShloMosaic.PureOps.Ideal.Laws

noncomputable section

open scoped BigOperators

namespace Cert.Lib.DotNT

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- Right operand, axis 0: the output's column. -/
theorem rhs0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- The left operand's index at output (p, j) and contraction coordinate k is (p, k). -/
theorem lhsIdx_nt (p : Fin M) (j : Fin N) (k : Fin K) :
    (DotDims.transposedRhs M K N).lhsIdx (ix2 p j) ((contrEquiv1 (DotDims.transposedRhs M K N) K rfl rfl).symm k) = ix2 p k := by
  have hk := contrEquiv1_symm_val (DotDims.transposedRhs M K N) K rfl rfl k
  exact funext fun a => Fin.ext (by
    match a with
    | ⟨0, _⟩ => exact lhs0 _ _
    | ⟨1, _⟩ => exact ((DotDims.transposedRhs M K N).lhsIdx_val_of_single rfl _ _).trans hk)

/-- The right operand's index at output (p, j) and contraction coordinate k is (j, k). -/
theorem rhsIdx_nt (p : Fin M) (j : Fin N) (k : Fin K) :
    (DotDims.transposedRhs M K N).rhsIdx (ix2 p j) ((contrEquiv1 (DotDims.transposedRhs M K N) K rfl rfl).symm k) = ix2 j k := by
  have hk := contrEquiv1_symm_val (DotDims.transposedRhs M K N) K rfl rfl k
  exact funext fun a => Fin.ext (by
    match a with
    | ⟨0, _⟩ => exact rhs0 _ _
    | ⟨1, _⟩ => exact ((DotDims.transposedRhs M K N).rhsIdx_val_of_single rfl _ _).trans hk)

/-- The contraction's sum at output (p, j) is the sum over the contracted coordinate. -/
theorem sum_nt (l : (⟨2, ![M, K]⟩ : Shape).Idx → EReal) (r : (⟨2, ![N, K]⟩ : Shape).Idx → EReal) (p : Fin M) (j : Fin N) :
    ∑ q : (DotDims.transposedRhs M K N).contr.Idx,
        l ((DotDims.transposedRhs M K N).lhsIdx (ix2 p j) q) * r ((DotDims.transposedRhs M K N).rhsIdx (ix2 p j) q)
      = ∑ k : Fin K, l (ix2 p k) * r (ix2 j k) := by
  rw [← Equiv.sum_comp (contrEquiv1 (DotDims.transposedRhs M K N) K rfl rfl).symm]
  refine Finset.sum_congr rfl fun k _ => ?_
  rw [lhsIdx_nt, rhsIdx_nt]

/-- A matrix product on the vector unit into the zero accumulator, at entry (p, j). -/
theorem matmul_zero_apply (prec : Option ContractPrecision) (l : FVec Ideal ⟨2, ![M, K]⟩ φ₁) (r : FVec Ideal ⟨2, ![N, K]⟩ φ₂)
    (p : Fin M) (j : Fin N) :
    FloatOps.matmul (DotDims.transposedRhs M K N) prec l r (constant ⟨2, ![M, N]⟩ .f32 0x00000000#32) (ix2 p j)
      = ∑ k : Fin K, l (ix2 p k) * r (ix2 j k) := by
  rw [Ideal.matmul_constant_zero_apply]
  exact sum_nt l r p j

/-- The host's dot_general at entry (p, j), whatever its schedule. -/
theorem dotGeneral_apply (prec : Option ContractPrecision) (sched : HostSchedule) (l : FVec Ideal ⟨2, ![M, K]⟩ φ₁)
    (r : FVec Ideal ⟨2, ![N, K]⟩ φ₂) (p : Fin M) (j : Fin N) :
    FloatOps.dotGeneral (DotDims.transposedRhs M K N) prec sched l r (ix2 p j) = ∑ k : Fin K, l (ix2 p k) * r (ix2 j k) := by
  rw [Ideal.dotGeneral_apply]
  exact sum_nt l r p j

end Cert.Lib.DotNT

end
-- ==== Proof.BodyProduct.lean ====
/-
  What one grid point adds to its output tile.

  At a grid point the body holds a 2048 × 512 tile of the activations, a 1024 × 512 tile of the quantized weight and
  the 8 × 512 scales of the tile's eight groups of 128 weight rows. It views the weight tile as 8 × 128 × 512,
  multiplies each group by its row of scales, flattens back, and adds the product of the activation tile with the
  transpose of that dequantized tile to what the output tile held. Entry (p, q) therefore gains

      ∑ k < 512,  x[p, k] · (w[q, k] · s[q / 128, k]).
-/
import proofs.«129274_j27066883899486_2_alg».proof.Proof.Gen.KernelIdeal.Skeleton
import proofs.«129274_j27066883899486_2_alg».proof.Proof.LibDotNT
import Idealize.ShloMosaic.Lib.Pipeline.Value
import Idealize.ShloMosaic.Lib.ValueIdx

noncomputable section

open scoped BigOperators

namespace Cert.Body

open Cert.KernelIdeal Cert.KernelIdeal.Gen Idealize.ShloMosaic Idealize.ShloMosaic.ValueIdx

/-- The group of 128 weight rows that row q of the tile lies in. -/
abbrev grp (q : Fin 1024) : Fin 8 := ⟨q.val / 128, by have := q.isLt; omega⟩

/-- The dequantized weight tile: each group of 128 rows times its row of scales. -/
def wtile (x1 : Vec Ideal S1024x512 .f32) (x2 : Vec Ideal S8x512 .f32) : FVec Ideal S1024x512 .f32 :=
  shapeCast S1024x512
    (mulf (shapeCast S8x128x512 x1 shapeCasts_S1024x512_S8x128x512)
      (broadcastTo S8x128x512
        (shapeCast S8x1x512 (shapeCast S8x512 x2 shapeCasts_S8x512_S8x512) shapeCasts_S8x512_S8x1x512)
        broadcasts_S8x1x512_S8x128x512))
    shapeCasts_S8x128x512_S1024x512

/-- Entry (q, k) of the dequantized tile is w[q, k] · s[q / 128, k]. -/
theorem wtile_apply (x1 : Vec Ideal S1024x512 .f32) (x2 : Vec Ideal S8x512 .f32) (q : Fin 1024) (k : Fin 512) :
    wtile x1 x2 (ix2 q k) = x1 (ix2 q k) * x2 (ix2 (grp q) k) := by
  have hq := q.isLt
  have hk := k.isLt
  unfold wtile
  rw [shapeCast_apply _ shapeCasts_S8x128x512_S1024x512 (ix2 q k)
      (ix3 (grp q) (⟨q.val % 128, Nat.mod_lt _ (by decide)⟩ : Fin 128) k)
      (by rw [Shape.rowMajor_val_three, Shape.rowMajor_val_two]
          show (q.val / 128 * 128 + q.val % 128) * 512 + k.val = q.val * 512 + k.val
          omega),
    mulf_apply,
    shapeCast_apply x1 shapeCasts_S1024x512_S8x128x512
      (ix3 (grp q) (⟨q.val % 128, Nat.mod_lt _ (by decide)⟩ : Fin 128) k) (ix2 q k)
      (by rw [Shape.rowMajor_val_two, Shape.rowMajor_val_three]
          show q.val * 512 + k.val = (q.val / 128 * 128 + q.val % 128) * 512 + k.val
          omega),
    broadcastTo_apply _ broadcasts_S8x1x512_S8x128x512
      (ix3 (grp q) (⟨q.val % 128, Nat.mod_lt _ (by decide)⟩ : Fin 128) k) (ix3 (grp q) (0 : Fin 1) k)
      (fun a => match a with
        | ⟨0, _⟩ => by show q.val / 128 = if (8 : Nat) = 1 then 0 else q.val / 128; rw [if_neg (by decide)]
        | ⟨1, _⟩ => by show 0 = if (1 : Nat) = 1 then 0 else q.val % 128; rw [if_pos rfl]
        | ⟨2, _⟩ => by show k.val = if (512 : Nat) = 1 then 0 else k.val; rw [if_neg (by decide)]),
    shapeCast_apply _ shapeCasts_S8x512_S8x1x512 (ix3 (grp q) (0 : Fin 1) k) (ix2 (grp q) k)
      (by rw [Shape.rowMajor_val_two, Shape.rowMajor_val_three]
          show q.val / 128 * 512 + k.val = (q.val / 128 * 1 + 0) * 512 + k.val
          omega),
    shapeCast_self]

/-- What the point adds to entry i of its output tile. -/
def addend (x0 : Vec Ideal S2048x512 .f32) (x1 : Vec Ideal S1024x512 .f32) (x2 : Vec Ideal S8x512 .f32) :
    S2048x1024.Idx → EReal :=
  fun i => ∑ k : Fin 512, x0 (ix2 (i 0) k) * (x1 (ix2 (i 1) k) * x2 (ix2 (grp (i 1)) k))

/-- The body's stored value: the tile's previous contents plus the point's addend. -/
theorem pay2_apply (x0 : Vec Ideal S2048x512 .f32) (x1 : Vec Ideal S1024x512 .f32) (x2 : Vec Ideal S8x512 .f32)
    (acc : Vec Ideal S2048x1024 .f32) (i : S2048x1024.Idx) :
    k0_pay2 (F := Ideal) x0 x1 x2 acc i = acc i + addend x0 x1 x2 i := by
  obtain ⟨p, q, rfl⟩ : ∃ (p : Fin 2048) (q : Fin 1024), i = ix2 p q := ⟨i 0, i 1, eq_ix2 i⟩
  show (shapeCast S2048x1024 acc shapeCasts_S2048x1024_S2048x1024) (ix2 p q)
      + FloatOps.matmul (DotDims.transposedRhs 2048 512 1024) none (truncf .bf16 x0 bitsLt_bf16_f32)
          (truncf .bf16 (wtile x1 x2) bitsLt_bf16_f32) (constant ⟨2, ![2048, 1024]⟩ .f32 0x00000000#32) (ix2 p q)
    = acc (ix2 p q) + ∑ k : Fin 512, x0 (ix2 p k) * (x1 (ix2 q k) * x2 (ix2 (grp q) k))
  rw [shapeCast_self, Cert.Lib.DotNT.matmul_zero_apply]
  refine congrArg _ (Finset.sum_congr rfl fun k _ => ?_)
  rw [truncf_apply, truncf_apply, wtile_apply]

end Cert.Body

end
-- ==== Proof.LibBlockSum.lean ====
/-
  A sum over K * n consecutive indices as K blocks of n.
-/
import Mathlib.Algebra.BigOperators.Fin
import Mathlib.Logic.Equiv.Fin.Basic

namespace Cert.Lib.BlockSum

/-- Position `j` of block `s`, among `K` blocks of `n` consecutive indices. -/
abbrev at_ {K n : ℕ} (s : Fin K) (j : Fin n) : Fin (K * n) :=
  ⟨s.val * n + j.val, Nat.lt_of_lt_of_le (Nat.add_lt_add_left j.isLt _)
    (by rw [← Nat.succ_mul]; exact Nat.mul_le_mul_right _ s.isLt)⟩

/-- A sum over the `K * n` indices below `K * n` is the sum over the `K` blocks of `n` consecutive indices of each
    block's sum: `∑ᵢ H i = ∑ₛ ∑ⱼ H (s n + j)`, in any commutative monoid (no subtraction, no finiteness of values:
    on the extended reals too). -/
theorem sum_blocks {β : Type*} [AddCommMonoid β] (K n : ℕ) (H : Fin (K * n) → β) :
    ∑ i, H i = ∑ s : Fin K, ∑ j : Fin n, H (at_ s j) := by
  rw [← Equiv.sum_comp finProdFinEquiv H, Fintype.sum_prod_type]
  refine Finset.sum_congr rfl fun s _ => Finset.sum_congr rfl fun j _ => congrArg H (Fin.ext ?_)
  show j.val + n * s.val = s.val * n + j.val
  rw [Nat.mul_comm, Nat.add_comm]

end Cert.Lib.BlockSum
-- ==== Proof.Spec.lean ====
/-
  The linear layer with a block-scaled weight, as one function of its three argument arrays.

  For activations x (8192 × 4096), quantized weights w (4096 × 4096) and one scale per 128 × 128 block of the weight
  (32 × 32), the result at row p and column n is

      ∑ k < 4096,  x[p, k] · (w[n, k] · scale[n / 128, k / 128]).

  Both programs compute this: the kernel by eight partial sums over 512 consecutive k each, the reference after
  quantizing the activations blockwise and undoing it.
-/
import Idealize.ShloMosaic.Lib.ValueIdx

noncomputable section

open scoped BigOperators

namespace Cert.Spec

open Idealize.ShloMosaic Idealize.ShloMosaic.ValueIdx

/-- The 128-wide block an index below 4096 lies in. -/
abbrev blk (a : Fin 4096) : Fin 32 := ⟨a.val / 128, by have := a.isLt; omega⟩

/-- x · (w ⊙ scale, block-expanded)ᵀ, entry by entry. -/
def linear (x : (⟨2, ![8192, 4096]⟩ : Shape).Idx → EReal) (w : (⟨2, ![4096, 4096]⟩ : Shape).Idx → EReal)
    (sc : (⟨2, ![32, 32]⟩ : Shape).Idx → EReal) : (⟨2, ![8192, 4096]⟩ : Shape).Idx → EReal :=
  fun i => ∑ k : Fin 4096, x (ix2 (i 0) k) * (w (ix2 (i 1) k) * sc (ix2 (blk (i 1)) (blk k)))

end Cert.Spec

end
-- ==== Proof.KernelValue.lean ====
/-
  The kernel, entry by entry.

  The grid is 4 × 4 × 8: a 2048-row band of the activations, a 1024-row band of the weight, and eight steps of 512
  along the contracted axis, innermost. The output tile of a (row band, weight band) pair is cleared at the first of
  its eight steps and gains one partial product at each, so it ends holding 0 plus the eight partial sums. Reading
  each step's tiles where they sit in the argument arrays — step s of the contraction covers k = 512·s … 512·s + 511,
  the scales of weight row n are row n / 128 of the scale array, which the host has repeated 128 times along k —
  the eight partial sums are the blocks of the one sum over k < 4096.
-/
import proofs.«129274_j27066883899486_2_alg».proof.Proof.Gen.KernelIdeal.Value
import proofs.«129274_j27066883899486_2_alg».proof.Proof.BodyProduct
import proofs.«129274_j27066883899486_2_alg».proof.Proof.LibBlockSum
import proofs.«129274_j27066883899486_2_alg».proof.Proof.Spec
import Idealize.ShloMosaic.Lib.StableHlo.Run
import Idealize.ShloMosaic.PureOps.Ideal.Laws

noncomputable section

open scoped BigOperators

namespace Cert.KernelValue

open Cert.KernelIdeal Cert.KernelIdeal.Gen Cert.KernelIdeal.Value Idealize.ShloMosaic Idealize.ShloMosaic.TcCoe
  Idealize.ShloMosaic.ValueIdx Idealize.SL.Sem

variable (m : (ℓ : Loc nD τ sig) → Buf (Elt Ideal) ℓ)

/-- Where each input window's block sits at grid point t = (32·a + 8·b + s): the activations' at (a, s), the weight's
    and the scales' at (b, s). Decided over the 128 points. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val / 8 % 4 ∧ win0_2.index t (1 : Fin 2) = t.val % 8 :=
  (by decide +kernel : ∀ t : Fin grid0.N, _)

/-- The activation tile at point t, read in the argument array. -/
theorem iblk0_apply (c : Dev nD) (t : Fin cfg0.N) (p : Fin 2048) (k : Fin 512) (i : S8192x4096.Idx)
    (h0 : (i 0).val = t.val / 32 * 2048 + p.val) (h1 : (i 1).val = t.val % 8 * 512 + k.val) :
    iblk m c 0 t (ix2 p k) = m ((c : Thread nD τ).loc main_arg0) i := by
  rw [← V_main_arg0 m c]
  show V m c main_arg0 (((cfg0.win 0).blk t).view.emb (ix2 p k)) = V m c main_arg0 i
  obtain ⟨f0, f1, -⟩ := idx_facts t
  refine congrArg _ (funext fun a => Fin.ext ?_)
  match a with
  | ⟨0, _⟩ => show win0_0.index t (0 : Fin 2) * 2048 + 1 * p.val = (i 0).val; rw [f0, h0]; omega
  | ⟨1, _⟩ => show win0_0.index t (1 : Fin 2) * 512 + 1 * k.val = (i 1).val; rw [f1, h1]; omega

/-- The weight tile at point t, read in the argument array. -/
theorem iblk1_apply (c : Dev nD) (t : Fin cfg0.N) (q : Fin 1024) (k : Fin 512) (i : S4096x4096.Idx)
    (h0 : (i 0).val = t.val / 8 % 4 * 1024 + q.val) (h1 : (i 1).val = t.val % 8 * 512 + k.val) :
    iblk m c 1 t (ix2 q k) = m ((c : Thread nD τ).loc main_arg1) i := by
  rw [← V_main_arg1 m c]
  show V m c main_arg1 (((cfg0.win 1).blk t).view.emb (ix2 q k)) = V m c main_arg1 i
  obtain ⟨-, -, f0, f1, -⟩ := idx_facts t
  refine congrArg _ (funext fun a => Fin.ext ?_)
  match a with
  | ⟨0, _⟩ => show win0_1.index t (0 : Fin 2) * 1024 + 1 * q.val = (i 0).val; rw [f0, h0]; omega
  | ⟨1, _⟩ => show win0_1.index t (1 : Fin 2) * 512 + 1 * k.val = (i 1).val; rw [f1, h1]; omega

/-- The scales as the region finds them: the 32 × 32 scale array with each entry repeated 128 times along the
    second axis. -/
theorem scales_apply (c : Dev nD) (b : Fin 32) (k : Fin 4096) :
    V m c main_v1 (ix2 b k) = m ((c : Thread nD τ).loc main_arg2) (ix2 b (Spec.blk k)) := by
  have hb := b.isLt
  have hk := k.isLt
  have e : (V m c main_v1 : S32x4096.Idx → EReal)
      = shapeCast S32x4096 (broadcastInDim S32x32x128 ![0, 1] bcast_S32x32_S32x32x128_0_1
          (m ((c : Thread nD τ).loc main_arg2))) shapeCasts_S32x32x128_S32x4096 := by
    dsimp only [Gen.V, Gen.hostOps0]; after_results; rfl
  rw [e, shapeCast_apply _ shapeCasts_S32x32x128_S32x4096 (ix2 b k)
      (ix3 b (Spec.blk k) (⟨k.val % 128, Nat.mod_lt _ (by decide)⟩ : Fin 128))
      (by rw [Shape.rowMajor_val_three, Shape.rowMajor_val_two]
          show (b.val * 32 + k.val / 128) * 128 + k.val % 128 = b.val * 4096 + k.val
          omega),
    broadcastInDim_apply ![0, 1] bcast_S32x32_S32x32x128_0_1 _
      (ix3 b (Spec.blk k) (⟨k.val % 128, Nat.mod_lt _ (by decide)⟩ : Fin 128)) (ix2 b (Spec.blk k))
      (fun a => match a with
        | ⟨0, _⟩ => by show b.val = if (32 : Nat) = 1 then 0 else b.val; rw [if_neg (by decide)]
        | ⟨1, _⟩ => by show k.val / 128 = if (32 : Nat) = 1 then 0 else k.val / 128; rw [if_neg (by decide)])]

/-- The scale tile at point t, read in the scale argument. -/
theorem iblk2_apply (c : Dev nD) (t : Fin cfg0.N) (g : Fin 8) (k : Fin 512) (b : Fin 32) (kk : Fin 4096)
    (h0 : b.val = t.val / 8 % 4 * 8 + g.val) (h1 : kk.val = t.val % 8 * 512 + k.val) :
    iblk m c 2 t (ix2 g k) = m ((c : Thread nD τ).loc main_arg2) (ix2 b (Spec.blk kk)) := by
  rw [← scales_apply m c b kk]
  show V m c main_v1 (((cfg0.win 2).blk t).view.emb (ix2 g k)) = V m c main_v1 (ix2 b kk)
  obtain ⟨-, -, -, -, f0, f1⟩ := idx_facts t
  refine congrArg _ (funext fun a => Fin.ext ?_)
  match a with
  | ⟨0, _⟩ => show win0_2.index t (0 : Fin 2) * 8 + 1 * g.val = b.val; rw [f0, h0]; omega
  | ⟨1, _⟩ => show win0_2.index t (1 : Fin 2) * 512 + 1 * k.val = kk.val; rw [f1, h1]; omega

/-- What grid point n adds to its output tile (zero past the grid, where it is never read). -/
def addend (c : Dev nD) (n : ℕ) : S2048x1024.Idx → EReal := fun i =>
  if h : n < cfg0.N then Body.addend (iblk m c 0 ⟨n, h⟩) (iblk m c 1 ⟨n, h⟩) (iblk m c 2 ⟨n, h⟩) i else 0

/-- After its eight steps an output tile holds the cleared value plus the eight addends. -/
theorem fold_eq (c : Dev nD) (b : ℕ) (h : b + 7 < cfg0.N) (i : S2048x1024.Idx) :
    Pipeline.accAt (reset3 m c) (step3 m c) b 7 h i
      = k0_pay1 (F := Ideal) i + ∑ s ∈ Finset.range 8, addend m c (b + s) i :=
  Pipeline.accAt_add_apply (reset3 m c) (step3 m c) (k0_pay1 (F := Ideal)) (addend m c) b 7
    (fun h i => by unfold reset3; rw [Body.pay2_apply]; unfold addend; rw [dif_pos h])
    (fun n h acc i _ _ => by unfold step3; rw [Body.pay2_apply]; unfold addend; rw [dif_pos h])
    7 le_rfl h i

/-- Entry i of the kernel's result array is the block-scaled linear layer of the argument arrays there. -/
theorem kernel_apply (c : Dev nD) (i : S8192x4096.Idx) :
    @Eq EReal (G3 m c i) (Spec.linear (m ((c : Thread nD τ).loc main_arg0)) (m ((c : Thread nD τ).loc main_arg1))
      (m ((c : Thread nD τ).loc main_arg2)) i) := by
  have hi0 : (i 0).val < 8192 := (i 0).isLt
  have hi1 : (i 1).val < 4096 := (i 1).isLt
  have hrun : run3Of i = 4 * ((i 0).val / 2048) + (i 1).val / 1024 := by
    show 4 * ((i 0).val / 2048 - 0) + 1 * ((i 1).val / 1024 - 0) = _
    omega
  have hr : 8 * run3Of i + 7 < cfg0.N := by
    rw [hrun]; show 8 * (4 * ((i 0).val / 2048) + (i 1).val / 1024) + 7 < 128; omega
  unfold G3
  rw [dif_pos hr, fold_eq m c _ hr, show k0_pay1 (F := Ideal) (loc3Of i) = 0 from Ideal.ofBits_zero_f32, zero_add]
  unfold Spec.linear
  refine Eq.trans ?_ (Cert.Lib.BlockSum.sum_blocks 8 512 _).symm
  rw [Finset.sum_range]
  refine Finset.sum_congr rfl fun s _ => ?_
  have hs : s.val < 8 := s.isLt
  have hn : 8 * run3Of i + s.val < cfg0.N := by
    rw [hrun]; show 8 * (4 * ((i 0).val / 2048) + (i 1).val / 1024) + s.val < 128; omega
  unfold addend
  rw [dif_pos hn]
  unfold Body.addend
  refine Finset.sum_congr rfl fun j _ => ?_
  have hj : j.val < 512 := j.isLt
  have hat : (Cert.Lib.BlockSum.at_ s j).val = s.val * 512 + j.val := rfl
  rw [iblk0_apply m c ⟨8 * run3Of i + s.val, hn⟩ (loc3Of i 0) j (ix2 (i 0) (Cert.Lib.BlockSum.at_ s j))
      (by show (i 0).val = (8 * run3Of i + s.val) / 32 * 2048 + (i 0).val % 2048; rw [hrun]; omega)
      (by show s.val * 512 + j.val = (8 * run3Of i + s.val) % 8 * 512 + j.val; rw [hrun]; omega),
    iblk1_apply m c ⟨8 * run3Of i + s.val, hn⟩ (loc3Of i 1) j (ix2 (i 1) (Cert.Lib.BlockSum.at_ s j))
      (by show (i 1).val = (8 * run3Of i + s.val) / 8 % 4 * 1024 + (i 1).val % 1024; rw [hrun]; omega)
      (by show s.val * 512 + j.val = (8 * run3Of i + s.val) % 8 * 512 + j.val; rw [hrun]; omega),
    iblk2_apply m c ⟨8 * run3Of i + s.val, hn⟩ (Body.grp (loc3Of i 1)) j (Spec.blk (i 1)) (Cert.Lib.BlockSum.at_ s j)
      (by show (i 1).val / 128 = (8 * run3Of i + s.val) / 8 % 4 * 8 + (i 1).val % 1024 / 128; rw [hrun]; omega)
      (by show s.val * 512 + j.val = (8 * run3Of i + s.val) % 8 * 512 + j.val; rw [hrun]; omega)]

/-- The kernel's result array is the block-scaled linear layer of the argument arrays. -/
theorem kernel_eq (c : Dev nD) :
    G3 m c = Spec.linear (m ((c : Thread nD τ).loc main_arg0)) (m ((c : Thread nD τ).loc main_arg1))
      (m ((c : Thread nD τ).loc main_arg2)) :=
  funext fun i => kernel_apply m c i

end Cert.KernelValue

end
-- ==== Proof.LibActQuant.lean ====
/-
  Block quantization followed by its own dequantization is the identity on real numbers (the 448-clipped activation
  quantization of an fp8-style linear layer).

  A block of real entries is scaled by s = M / 448 + ε, where M is the largest absolute value in the block and ε > 0;
  each entry a becomes a / s, is clipped to [-448, 448], and is multiplied by s again. Since |a| ≤ M < 448 · s the
  quotient already lies in the clipping interval, so the clip does nothing, and (a / s) · s = a because s is a nonzero
  real. On the extended reals this needs the entries to be real: the maximum of the block's absolute values, folded
  from -∞, is then itself a real number that bounds every |a|.
-/
import Idealize.ShloMosaic.PureOps.Ideal
import Mathlib.Data.Finset.Fold

noncomputable section

namespace Cert.Lib.ActQuant

open Idealize.ShloMosaic

/-- The f32 pattern of 448.0 is the real number 448. -/
theorem ofBits_448 : Ideal.ofBits .f32 0x43E00000#32 = ((448 : ℝ) : EReal) := by
  simp [Ideal.ofBits, Ideal.ieee, -EReal.coe_mul]; norm_num

/-- The f32 pattern of -448.0 is the real number -448. -/
theorem ofBits_neg448 : Ideal.ofBits .f32 0xC3E00000#32 = ((-448 : ℝ) : EReal) := by
  simp [Ideal.ofBits, Ideal.ieee, -EReal.coe_mul]; norm_num

/-- The f32 pattern 0xFF800000 is -∞. -/
theorem ofBits_negInf : Ideal.ofBits .f32 0xFF800000#32 = ⊥ := by
  simp [Ideal.ofBits, Ideal.ieee]

/-- The f32 pattern nearest 1e-8 is a positive real number. -/
theorem ofBits_eps : ∃ e : ℝ, 0 < e ∧ Ideal.ofBits .f32 0x322BCC77#32 = (e : EReal) := by
  refine ⟨(11258999 : ℝ) * (2 : ℝ) ^ (-50 : ℤ), by positivity, ?_⟩
  simp [Ideal.ofBits, Ideal.ieee, -EReal.coe_mul]

/-- Scale, clip to [-448, 448], scale back: a real entry whose absolute value the block maximum M bounds comes back
    unchanged. -/
theorem dequant (a M e : ℝ) (ha : |a| ≤ M) (he : 0 < e) :
    min ((448 : ℝ) : EReal)
        (max ((-448 : ℝ) : EReal) (Ideal.div (a : EReal) (Ideal.div (M : EReal) ((448 : ℝ) : EReal) + (e : EReal))))
      * (Ideal.div (M : EReal) ((448 : ℝ) : EReal) + (e : EReal)) = (a : EReal) := by
  have hM : 0 ≤ M := le_trans (abs_nonneg a) ha
  have hs0 : 0 < M * (1 / 448) + e := by positivity
  have h1 : Ideal.div (M : EReal) ((448 : ℝ) : EReal) + (e : EReal) = ((M * (1 / 448) + e : ℝ) : EReal) := by
    rw [Ideal.div_coe (by norm_num : (448 : ℝ) ≠ 0), ← EReal.coe_mul, ← EReal.coe_add]
  rw [h1, Ideal.div_coe hs0.ne', ← EReal.coe_mul]
  have h448 : 448 * (M * (1 / 448) + e) = M + 448 * e := by ring
  have hq1 : -448 ≤ a * (1 / (M * (1 / 448) + e)) := by
    rw [mul_one_div, le_div_iff₀ hs0]
    have := neg_abs_le a
    nlinarith
  have hq2 : a * (1 / (M * (1 / 448) + e)) ≤ 448 := by
    rw [mul_one_div, div_le_iff₀ hs0]
    have := le_abs_self a
    nlinarith
  rw [max_eq_right (EReal.coe_le_coe_iff.2 hq1), min_eq_right (EReal.coe_le_coe_iff.2 hq2), ← EReal.coe_mul]
  congr 1
  field_simp

/-- The maximum of the absolute values of finitely many real entries, folded from -∞ over a nonempty index set, is a
    real number that bounds each of them. -/
theorem absmax_real {ι : Type*} (S : Finset ι) (f : ι → EReal) (hf : ∀ i ∈ S, ∃ r : ℝ, f i = (r : EReal))
    (i0 : ι) (hi0 : i0 ∈ S) :
    ∃ M : ℝ, S.fold max (⊥ : EReal) (fun i => max (f i) (-(f i))) = (M : EReal)
      ∧ ∀ i ∈ S, ∀ r : ℝ, f i = (r : EReal) → |r| ≤ M := by
  have habs : ∀ r : ℝ, max ((r : EReal)) (-(r : EReal)) = ((|r| : ℝ) : EReal) := by
    intro r
    rw [← EReal.coe_neg]
    rcases le_total r (-r) with h | h
    · rw [max_eq_right (EReal.coe_le_coe_iff.2 h), abs_of_nonpos (by linarith)]
    · rw [max_eq_left (EReal.coe_le_coe_iff.2 h), abs_of_nonneg (by linarith)]
  have hlt : S.fold max (⊥ : EReal) (fun i => max (f i) (-(f i))) < ⊤ := by
    rw [Finset.fold_max_lt]
    refine ⟨bot_lt_top, fun i hi => ?_⟩
    obtain ⟨r, hr⟩ := hf i hi
    rw [hr, habs]
    exact EReal.coe_lt_top _
  have hgt : (⊥ : EReal) < S.fold max (⊥ : EReal) (fun i => max (f i) (-(f i))) := by
    rw [Finset.lt_fold_max]
    refine Or.inr ⟨i0, hi0, ?_⟩
    obtain ⟨r, hr⟩ := hf i0 hi0
    rw [hr, habs]
    exact EReal.bot_lt_coe _
  obtain ⟨M, hM⟩ : ∃ M : ℝ, S.fold max (⊥ : EReal) (fun i => max (f i) (-(f i))) = (M : EReal) := by
    induction h : S.fold max (⊥ : EReal) (fun i => max (f i) (-(f i))) using EReal.rec with
    | bot => rw [h] at hgt; exact absurd hgt (lt_irrefl _)
    | coe r => exact ⟨r, rfl⟩
    | top => rw [h] at hlt; exact absurd hlt (lt_irrefl _)
  refine ⟨M, hM, fun i hi r hr => ?_⟩
  have : ((|r| : ℝ) : EReal) ≤ S.fold max (⊥ : EReal) (fun i => max (f i) (-(f i))) := by
    rw [Finset.le_fold_max]
    exact Or.inr ⟨i, hi, by rw [hr, habs]⟩
  rw [hM] at this
  exact EReal.coe_le_coe_iff.1 this

end Cert.Lib.ActQuant

end
-- ==== Proof.RefValue.lean ====
/-
  The reference, entry by entry.

  The reference first quantizes the activations in blocks of 128 along each row — divide by
  s = (max of the block's absolute values) / 448 + ε, clip to [-448, 448] — and multiplies by s again before the
  product. For real activations that round trip is the identity (LibActQuant.lean), so what enters the product is x itself.
  The weight side is w[n, k] · scale[n / 128, k / 128], written through a four-axis view of w; the product contracts
  the second axis of both operands.
-/
import proofs.«129274_j27066883899486_2_alg».proof.Proof.Gen.ReferenceIdeal.Read
import proofs.«129274_j27066883899486_2_alg».proof.Proof.LibActQuant
import proofs.«129274_j27066883899486_2_alg».proof.Proof.Spec
import Idealize.ShloMosaic.PureOps.Ideal.Laws

noncomputable section

open scoped BigOperators

namespace Cert.RefValue

open Cert.ReferenceIdeal Cert.ReferenceIdeal.Gen Cert.ReferenceIdeal.Read Idealize.ShloMosaic Idealize.ShloMosaic.ValueIdx

/-- The block maximum: at the (row, block) that a three-axis index i3 drops to, the reference's reduce is a real
    number bounding the absolute value of the entry at i3. -/
theorem blockmax (x0 : (⟨S8192x4096, .f32⟩ : BufTy).Contents (Elt Ideal)) (hx : ∀ i, ∃ r : ℝ, x0 i = (r : EReal))
    (i3 : S8192x32x128.Idx) (j : S8192x32.Idx) (hj : reducesTo_S8192x32x128_S8192x32_d2.drop i3 = j) :
    ∃ M : ℝ, val_main_v2 (F := Ideal) x0 j = (M : EReal)
      ∧ ∀ r : ℝ, x0 (idx_main_v0 i3) = (r : EReal) → |r| ≤ M := by
  have hv1 : (val_main_v1 (F := Ideal) x0) = fun i => max (x0 (idx_main_v0 i)) (-(x0 (idx_main_v0 i))) :=
    funext fun i => by rw [val_main_v1_apply, val_main_v0_apply]; rfl
  unfold val_main_v2
  rw [Host.reduce_eq_fold, hv1]
  obtain ⟨M, hM, hb⟩ := Cert.Lib.ActQuant.absmax_real (Finset.univ.filter fun i => reducesTo_S8192x32x128_S8192x32_d2.drop i = j)
    (fun i => x0 (idx_main_v0 i)) (fun i _ => hx _) i3 (Finset.mem_filter.2 ⟨Finset.mem_univ _, hj⟩)
  refine ⟨M, ?_, fun r hr => hb i3 (Finset.mem_filter.2 ⟨Finset.mem_univ _, hj⟩) r hr⟩
  rw [← hM, ← Cert.Lib.ActQuant.ofBits_negInf]
  rfl

/-- The quantize-and-dequantize round trip returns real activations unchanged: what the reference hands to its
    product is x. -/
theorem dequantized (x0 : (⟨S8192x4096, .f32⟩ : BufTy).Contents (Elt Ideal)) (hx : ∀ i, ∃ r : ℝ, x0 i = (r : EReal))
    (i2 : S8192x4096.Idx) : val_main_v14 (F := Ideal) x0 i2 = x0 i2 := by
  obtain ⟨a, ha⟩ := hx i2
  obtain ⟨e, he, hebits⟩ := Cert.Lib.ActQuant.ofBits_eps
  have h0 : (i2 0).val < 8192 := (i2 0).isLt
  have h1 : (i2 1).val < 4096 := (i2 1).isLt
  -- the three-axis index of entry i2 names i2 again in the two-axis array
  have e0 : idx_main_v0 (idx_main_v14 i2) = i2 := funext fun d => Fin.ext (by
    match d with
    | ⟨0, _⟩ =>
      show (((((i2 0).val * 4096 + (i2 1).val) / 4096) * 32 + ((i2 0).val * 4096 + (i2 1).val) / 128 % 32) * 128
        + ((i2 0).val * 4096 + (i2 1).val) % 128) / 4096 = (i2 0).val
      omega
    | ⟨1, _⟩ =>
      show (((((i2 0).val * 4096 + (i2 1).val) / 4096) * 32 + ((i2 0).val * 4096 + (i2 1).val) / 128 % 32) * 128
        + ((i2 0).val * 4096 + (i2 1).val) % 128) % 4096 = (i2 1).val
      omega)
  -- its (row, block) is where the reduce over the third axis drops it
  have hj : reducesTo_S8192x32x128_S8192x32_d2.drop (idx_main_v14 i2) = idx_main_v7 (idx_main_v8 (idx_main_v14 i2)) :=
    funext fun b => Fin.ext (by
      match b with
      | ⟨0, _⟩ => exact Shape.ReducesTo.drop_apply_val_of_eq _ _ 0 0
      | ⟨1, _⟩ => exact Shape.ReducesTo.drop_apply_val_of_eq _ _ 1 1)
  obtain ⟨M, hM, hb⟩ := blockmax x0 hx (idx_main_v14 i2) _ hj
  have habs : |a| ≤ M := hb a (by rw [e0]; exact ha)
  simp only [val_main_v14_apply, val_main_v13_apply, val_main_v10_apply, val_main_call0_v4_apply,
    val_main_call0_v3_apply, val_main_cst_3_apply, val_main_call0_v2_apply, val_main_call0_v1_apply,
    val_main_call0_v0_apply, val_main_cst_2_apply, val_main_v9_apply, val_main_v0_apply, val_main_v8_apply,
    val_main_v7_apply, val_main_v12_apply, val_main_v11_apply, val_main_v6_apply, val_main_v4_apply,
    val_main_v3_apply, val_main_cst_0_apply, val_main_v5_apply, val_main_cst_1_apply]
  rw [hM, e0, ha]
  simp only [Ideal.mulf_def, Ideal.minimumf_def, Ideal.maximumf_def, Ideal.hostDivf_def, Ideal.addf_def,
    Ideal.ofBits_def, Cert.Lib.ActQuant.ofBits_448, Cert.Lib.ActQuant.ofBits_neg448, hebits]
  exact Cert.Lib.ActQuant.dequant a M e habs he

/-- The reference's result is the block-scaled linear layer of its arguments, when the activations are real. -/
theorem reference_eq (x0 : (⟨S8192x4096, .f32⟩ : BufTy).Contents (Elt Ideal))
    (x1 : (⟨S4096x4096, .f32⟩ : BufTy).Contents (Elt Ideal)) (x2 : (⟨S32x32, .f32⟩ : BufTy).Contents (Elt Ideal))
    (hx : ∀ i, ∃ r : ℝ, x0 i = (r : EReal)) :
    val_main_v20 (F := Ideal) x0 x1 x2 = Spec.linear x0 x1 x2 := by
  funext i
  rw [val_main_v20_apply]
  unfold Spec.linear
  refine Finset.sum_congr rfl fun k _ => ?_
  have h1 : (i 1).val < 4096 := (i 1).isLt
  have hk : k.val < 4096 := k.isLt
  have e1 : lidx_main_v20 i k = ix2 (i 0) k := funext fun d => Fin.ext (by
    match d with
    | ⟨0, _⟩ => rfl
    | ⟨1, _⟩ => rfl)
  have e2 : idx_main_v15 (idx_main_v19 (ridx_main_v20 i k)) = ix2 (i 1) k := funext fun d => Fin.ext (by
    match d with
    | ⟨0, _⟩ =>
      show ((((((i 1).val * 4096 + k.val) / 524288) * 128 + ((i 1).val * 4096 + k.val) / 4096 % 128) * 32
        + ((i 1).val * 4096 + k.val) / 128 % 32) * 128 + ((i 1).val * 4096 + k.val) % 128) / 4096 = (i 1).val
      omega
    | ⟨1, _⟩ =>
      show ((((((i 1).val * 4096 + k.val) / 524288) * 128 + ((i 1).val * 4096 + k.val) / 4096 % 128) * 32
        + ((i 1).val * 4096 + k.val) / 128 % 32) * 128 + ((i 1).val * 4096 + k.val) % 128) % 4096 = k.val
      omega)
  have e3 : idx_main_v16 (idx_main_v17 (idx_main_v19 (ridx_main_v20 i k))) = ix2 (Spec.blk (i 1)) (Spec.blk k) :=
    funext fun d => Fin.ext (by
      match d with
      | ⟨0, _⟩ =>
        show ((i 1).val * 4096 + k.val) / 524288 = (i 1).val / 128
        omega
      | ⟨1, _⟩ =>
        show ((i 1).val * 4096 + k.val) / 128 % 32 = k.val / 128
        omega)
  rw [dequantized x0 hx, val_main_v19_apply, val_main_v18_apply, val_main_v15_apply, val_main_v17_apply,
    val_main_v16_apply, e1, e2, e3]
  rfl

end Cert.RefValue

end
-- ==== Proof.LibFiniteEntry.lean ====
/-
  The "every input is finite" precondition, read at one entry, on the extended reals.

  Such a precondition tests each float argument `x` by `all (|x| < +inf)`: elementwise `|x[i]| < inf` against the f32
  pattern `0x7F800000`, reduced by `and` to one bit. There `|a| = max a (-a)`, the pattern is `⊤`, and `max a (-a) < ⊤`
  excludes both `a = ⊤` and `a = ⊥`: the entry is a real number (`entry_real`, for an array of any shape, from its
  elementwise test being 1 at that entry; the reduction's bit gives that through `Host.reduce_andi_all`, which asks for
  the `Subsingleton` instance below). Also here: the f32 pattern of 1.0 is the real number 1 (`ofBits_one_real`).
-/
import Idealize.ShloMosaic.PureOps.Ideal
import Idealize.ShloMosaic.Lib.ReduceAll

noncomputable section

namespace Cert.Lib.FiniteEntry

open Idealize.ShloMosaic

/-- The scalar shape has one index. -/
instance : Subsingleton (⟨0, ![]⟩ : Shape).Idx := ⟨fun a b => funext fun d => d.elim0⟩

/-- The f32 pattern `0x7F800000` is `+inf`. -/
theorem ofBits_inf : Ideal.ofBits .f32 0x7F800000#32 = ⊤ := by
  simp [Ideal.ofBits, Ideal.ieee]

/-- The f32 pattern `0x3F800000` is the real number 1. -/
theorem ofBits_one_real : ∃ r : ℝ, Ideal.ofBits .f32 0x3F800000#32 = (r : EReal) :=
  ⟨1, by simp [Ideal.ofBits, Ideal.ieee, -EReal.coe_mul]; norm_num⟩

/-- An extended real whose absolute value is below `+inf` is a real number. -/
theorem real_of_abs_lt_inf (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | coe r => exact ⟨r, rfl⟩
  | top => simp [Ideal.cmp] at h

/-- One argument's elementwise test `|x| < inf`, 1 at entry `i`: that entry is a real number. -/
theorem entry_real {s : Shape} (hb : (⟨0, ![]⟩ : Shape).BroadcastsInDim s (![] : Fin 0 → Fin s.rank)) (x : FVec Ideal s .f32)
    (i : s.Idx)
    (h : cmpf .olt (Host.absf x) (broadcastInDim s ![] hb (constant (F := Ideal) ⟨0, ![]⟩ .f32 0x7F800000#32)) i = 1#1) :
    ∃ r : ℝ, x i = (r : EReal) :=
  real_of_abs_lt_inf (x i) h

end Cert.Lib.FiniteEntry

end
-- ==== Proof.Finite.lean ====
/-
  The precondition, read at one activation entry.

  The precondition tests each argument by all(|·| < +∞) and conjoins the three bits. Its first conjunct, read at an
  entry of the activations, says that entry is a real number.
-/
import proofs.«129274_j27066883899486_2_alg».proof.Proof.Gen.Pre_finite_inputs
import proofs.«129274_j27066883899486_2_alg».proof.Proof.LibFiniteEntry
import Idealize.ShloMosaic.Lib.Affine
import Idealize.ShloMosaic.Lib.ValueIdx

noncomputable section

namespace Cert.Finite

open Cert.Pre_finite_inputs Cert.Pre_finite_inputs.Gen Idealize.ShloMosaic

/-- Under the precondition every activation entry is a real number. -/
theorem activations_real (a0 : FVec Ideal S8192x4096 .f32) (a1 : FVec Ideal S4096x4096 .f32)
    (a2 : FVec Ideal S32x32 .f32) (h : Cert.Pre_finite_inputs.fn (F := Ideal) a0 a1 a2 = fun _ => 1#1)
    (i : S8192x4096.Idx) : ∃ r : ℝ, a0 i = (r : EReal) := by
  have h0 := congrFun h ValueIdx.ix0
  dsimp only [Cert.Pre_finite_inputs.fn] at h0
  have h1 := (IntOp.andi_eq_one.1 h0).1
  have h2 := (IntOp.andi_eq_one.1 h1).1
  exact Cert.Lib.FiniteEntry.entry_real _ a0 i (Host.reduce_andi_all _ _ _ _ _ h2 i)

end Cert.Finite

end
-- ==== Proof.lean ====
/-
  A linear layer whose weight is stored quantized, with one scale per 128 × 128 block: the kernel against the
  reference, on the extended reals.

  Both programs return, at row p and column n,

      ∑ k < 4096,  x[p, k] · (w[n, k] · scale[n / 128, k / 128])                    (Proof/Spec.lean).

  The kernel walks a 4 × 4 × 8 grid; the output tile of a (row band, weight band) pair is cleared at the first of its
  eight steps along k and gains a 512-term partial sum at each, the weight tile dequantized in place by its eight rows
  of scales (Proof/BodyProduct.lean); read where the tiles sit in the argument arrays, the eight partial sums are the
  eight blocks of the one sum (Proof/KernelValue.lean). No law used there fails at an infinity: regrouping a sum is
  associativity and commutativity of + alone.

  The reference first quantizes the activations — each block of 128 along a row divided by
  s = max|·| / 448 + ε, clipped to [-448, 448] — and multiplies by s again. That round trip is the identity exactly
  when the entries are real numbers: then the block maximum M is a real that bounds |a|, so |a / s| < 448 and the clip
  does nothing, and (a / s) · s = a for the nonzero real s (Proof/LibActQuant.lean, Proof/RefValue.lean). This is where the
  precondition is used: it makes every activation a real number (Proof/Finite.lean). At an infinite activation the
  round trip would not return it, so the precondition is needed, not a convenience.

  The three frame claims are the programs' runs with the results dropped; the idealization rewrote nothing, so its
  claim is trivial.
-/
import proofs.«129274_j27066883899486_2_alg».proof.Defs
import proofs.«129274_j27066883899486_2_alg».proof.Proof.Gen.Kernel.Frame
import proofs.«129274_j27066883899486_2_alg».proof.Proof.Gen.KernelIdeal.Value
import proofs.«129274_j27066883899486_2_alg».proof.Proof.Gen.Pre_finite_inputs
import proofs.«129274_j27066883899486_2_alg».proof.Proof.Gen.ReferenceIdeal.Run
import proofs.«129274_j27066883899486_2_alg».proof.Proof.Gen.ReferenceIdeal.Read
import proofs.«129274_j27066883899486_2_alg».proof.Proof.KernelValue
import proofs.«129274_j27066883899486_2_alg».proof.Proof.RefValue
import proofs.«129274_j27066883899486_2_alg».proof.Proof.Finite
import Idealize.ShloMosaic.Adequacy
import Idealize.ShloMosaic.Init

noncomputable section

namespace Cert.Proof

open Idealize.ShloMosaic Idealize.SL.Sem

/-- The idealized kernel runs and leaves its arguments as they were: its value run, the result forgotten. -/
theorem frame_KernelIdeal : frame_KernelIdeal := fun m ρ _ =>
  (θ_run Cert.KernelIdeal.defs _ _).mono (fun _ h c => (h c).2) (Cert.KernelIdeal.Value.run (F := Ideal) m ρ)

/-- The idealized reference runs and leaves its arguments as they were: its run, the result forgotten. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on the arguments, with real activations, both programs end holding the block-scaled
    linear layer of the arguments. -/
theorem algebraic_KernelIdeal_ReferenceIdeal : algebraic_KernelIdeal_ReferenceIdeal := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.KernelValue.kernel_eq m c]
  exact (Cert.ReferenceIdeal.Read.val_main_v20_eq _ _ _).trans
    (Cert.RefValue.reference_eq _ _ _ (fun i => Cert.Finite.activations_real _ _ _ (hpre c) i))

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
